-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x6 : Shape := ⟨2, ![8388608, 6]⟩
abbrev S8388608x4 : Shape := ⟨2, ![8388608, 4]⟩
abbrev S_ : Shape := ⟨0, ![]⟩

class Facts : Prop where
  bcast_S_S8388608x6 : S_.BroadcastsInDim S8388608x6 (![] : Fin 0 → Fin S8388608x6.rank)
  reducesTo_S8388608x6_S_d0_1 : S8388608x6.ReducesTo [0, 1] S_
  h_S_ : 0 < S_.numel
  bcast_S_S8388608x4 : S_.BroadcastsInDim S8388608x4 (![] : Fin 0 → Fin S8388608x4.rank)
  reducesTo_S8388608x4_S_d0_1 : S8388608x4.ReducesTo [0, 1] S_

variable [Facts]

def fn {F : FTy → Type} [FloatOps F] (main_arg0 : FVec F S8388608x6 .f32) (main_arg1 : FVec F S8388608x4 .f32) : IVec S_ 1 :=
  let main_v0 : FVec F S8388608x6 .f32 := Host.absf main_arg0
  let main_cst : FVec F S_ .f32 := constant S_ .f32 0x7F800000#32
  let main_v1 : FVec F S8388608x6 .f32 := broadcastInDim S8388608x6 ![] bcast_S_S8388608x6 main_cst
  let main_v2 : IVec S8388608x6 1 := cmpf .olt main_v0 main_v1
  let main_c : IVec S_ 1 := constantI S_ 1 1#1
  let main_v3 : IVec S_ 1 := (fun x v => Host.reduce IntOp.andi x v reducesTo_S8388608x6_S_d0_1 h_S_) main_v2 main_c
  let main_v4 : FVec F S8388608x4 .f32 := Host.absf main_arg1
  let main_cst_0 : FVec F S_ .f32 := constant S_ .f32 0x7F800000#32
  let main_v5 : FVec F S8388608x4 .f32 := broadcastInDim S8388608x4 ![] bcast_S_S8388608x4 main_cst_0
  let main_v6 : IVec S8388608x4 1 := cmpf .olt main_v4 main_v5
  let main_c_1 : IVec S_ 1 := constantI S_ 1 1#1
  let main_v7 : IVec S_ 1 := (fun x v => Host.reduce IntOp.andi x v reducesTo_S8388608x4_S_d0_1 h_S_) main_v6 main_c_1
  let main_v8 : IVec S_ 1 := andi main_v3 main_v7
  main_v8
-- ==== Kernel.lean ====
abbrev S8388608x6 : Shape := ⟨2, ![8388608, 6]⟩
abbrev S8388608x4 : Shape := ⟨2, ![8388608, 4]⟩
abbrev S2x8x128 : Shape := ⟨3, ![2, 8, 128]⟩
abbrev S_ : Shape := ⟨0, ![]⟩
abbrev S16384x6 : Shape := ⟨2, ![16384, 6]⟩
abbrev S16384x4 : Shape := ⟨2, ![16384, 4]⟩
abbrev S1x8x128 : Shape := ⟨3, ![1, 8, 128]⟩
abbrev S8x128 : Shape := ⟨2, ![8, 128]⟩
abbrev S16384x3 : Shape := ⟨2, ![16384, 3]⟩
abbrev S16384x1 : Shape := ⟨2, ![16384, 1]⟩
abbrev S16384x5 : Shape := ⟨2, ![16384, 5]⟩
abbrev S1x16384x5 : Shape := ⟨3, ![1, 16384, 5]⟩
abbrev S1 : Shape := ⟨1, ![1]⟩
abbrev S1x1x1 : Shape := ⟨3, ![1, 1, 1]⟩

abbrev nBuf : Space → Nat
  | .hbm => 7
  | .vmem => 6
  | .smem => 0
  | _ => 0

abbrev bufTy : (tb : Table) → Fin (tcTables nBuf tb) → BufTy
  | .hbm, ⟨0, _⟩ => ⟨S8388608x6, .f32⟩
  | .hbm, ⟨1, _⟩ => ⟨S8388608x4, .f32⟩
  | .hbm, ⟨2, _⟩ => ⟨S2x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S16384x6, .f32⟩
  | .local _ .vmem, ⟨1, _⟩ => ⟨S16384x6, .f32⟩
  | .local _ .vmem, ⟨2, _⟩ => ⟨S16384x4, .f32⟩
  | .local _ .vmem, ⟨3, _⟩ => ⟨S16384x4, .f32⟩
  | .local _ .vmem, ⟨4, _⟩ => ⟨S1x8x128, .f32⟩
  | .local _ .vmem, ⟨5, _⟩ => ⟨S1x8x128, .f32⟩
  | _, _ => ⟨S8388608x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_cst_0 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 256], ![false, false]⟩

def cc0_transform_0 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S2x8x128_S_d0_1_2 : S2x8x128.ReducesTo [0, 1, 2] S_
  h_S_ : 0 < S_.numel
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S16384x6_S16384x6_0_0 : ∀ a, (![0, 0] : Fin 2 → Nat) a + S16384x6.size a ≤ S16384x6.size a
  h_S16384x6 : 0 < S16384x6.numel
  inb_S16384x4_S16384x4_0_0 : ∀ a, (![0, 0] : Fin 2 → Nat) a + S16384x4.size a ≤ S16384x4.size a
  h_S16384x4 : 0 < S16384x4.numel
  slices_S16384x6_o0_0_S16384x3 : S16384x6.Slices ![0, 0] S16384x3
  slices_S16384x4_o0_0_S16384x3 : S16384x4.Slices ![0, 0] S16384x3
  slices_S16384x6_o0_3_S16384x1 : S16384x6.Slices ![0, 3] S16384x1
  slices_S16384x6_o0_4_S16384x1 : S16384x6.Slices ![0, 4] S16384x1
  slices_S16384x6_o0_5_S16384x1 : S16384x6.Slices ![0, 5] S16384x1
  slices_S16384x4_o0_3_S16384x1 : S16384x4.Slices ![0, 3] S16384x1
  concatenates_S16384x3_S16384x1_S16384x1_S16384x5_d1 : Shape.Concatenates [S16384x3, S16384x1, S16384x1] S16384x5 1
  shapeCasts_S16384x5_S1x16384x5 : S16384x5.ShapeCasts S1x16384x5
  reduces_S1x16384x5_S1 : S1x16384x5.Reduces [1, 2] S1
  shapeCasts_S1_S1x1x1 : S1.ShapeCasts S1x1x1
  inpos_S1x1x1_p0_0_0 : ∀ a, (![0, 0, 0] : Fin 3 → Nat) a < S1x1x1.size a
  iota_S8x128_d0_w32 : S8x128.Iotas .tc 32 [0]
  iota_S8x128_d1_w32 : S8x128.Iotas .tc 32 [1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x6.size a ≤ S8388608x6.size a
  hwx0_0 : ∀ i : grid0.Coords, EltTy.bits .f32 = 32 ∨ (Rect.block (s := S8388608x6) S16384x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x4.size a ≤ S8388608x4.size a
  hwx0_1 : ∀ i : grid0.Coords, EltTy.bits .f32 = 32 ∨ (Rect.block (s := S8388608x4) S16384x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_arg0) S16384x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8388608x6 : Shape := ⟨2, ![8388608, 6]⟩
abbrev S8388608x4 : Shape := ⟨2, ![8388608, 4]⟩
abbrev S8388608x3 : Shape := ⟨2, ![8388608, 3]⟩
abbrev S8388608x1 : Shape := ⟨2, ![8388608, 1]⟩
abbrev S8388608 : Shape := ⟨1, ![8388608]⟩
abbrev S_ : Shape := ⟨0, ![]⟩
abbrev S8388608x5 : Shape := ⟨2, ![8388608, 5]⟩

abbrev nBuf : Space → Nat
  | .hbm => 49
  | .vmem => 0
  | .smem => 0
  | _ => 0

abbrev bufTy : (tb : Table) → Fin (tcTables nBuf tb) → BufTy
  | .hbm, ⟨0, _⟩ => ⟨S8388608x6, .f32⟩
  | .hbm, ⟨1, _⟩ => ⟨S8388608x4, .f32⟩
  | .hbm, ⟨2, _⟩ => ⟨S8388608x3, .f32⟩
  | .hbm, ⟨3, _⟩ => ⟨S8388608x3, .f32⟩
  | .hbm, ⟨4, _⟩ => ⟨S8388608x3, .f32⟩
  | .hbm, ⟨5, _⟩ => ⟨S8388608x3, .f32⟩
  | .hbm, ⟨6, _⟩ => ⟨S8388608x1, .f32⟩
  | .hbm, ⟨7, _⟩ => ⟨S8388608, .f32⟩
  | .hbm, ⟨8, _⟩ => ⟨S8388608x1, .f32⟩
  | .hbm, ⟨9, _⟩ => ⟨S8388608, .f32⟩
  | .hbm, ⟨10, _⟩ => ⟨S8388608x1, .f32⟩
  | .hbm, ⟨11, _⟩ => ⟨S8388608, .f32⟩
  | .hbm, ⟨12, _⟩ => ⟨S8388608x1, .f32⟩
  | .hbm, ⟨13, _⟩ => ⟨S8388608, .f32⟩
  | .hbm, ⟨14, _⟩ => ⟨S8388608, .i1⟩
  | .hbm, ⟨15, _⟩ => ⟨S_, .f32⟩
  | .hbm, ⟨16, _⟩ => ⟨S8388608, .f32⟩
  | .hbm, ⟨17, _⟩ => ⟨S8388608, .f32⟩
  | .hbm, ⟨18, _⟩ => ⟨S8388608, .i1⟩
  | .hbm, ⟨19, _⟩ => ⟨S8388608, .f32⟩
  | .hbm, ⟨20, _⟩ => ⟨S8388608, .f32⟩
  | .hbm, ⟨21, _⟩ => ⟨S_, .f32⟩
  | .hbm, ⟨22, _⟩ => ⟨S_, .f32⟩
  | .hbm, ⟨23, _⟩ => ⟨S8388608, .f32⟩
  | .hbm, ⟨24, _⟩ => ⟨S8388608, .f32⟩
  | .hbm, ⟨25, _⟩ => ⟨S_, .f32⟩
  | .hbm, ⟨26, _⟩ => ⟨S8388608, .f32⟩
  | .hbm, ⟨27, _⟩ => ⟨S8388608, .f32⟩
  | .hbm, ⟨28, _⟩ => ⟨S8388608, .i1⟩
  | .hbm, ⟨29, _⟩ => ⟨S_, .f32⟩
  | .hbm, ⟨30, _⟩ => ⟨S8388608, .f32⟩
  | .hbm, ⟨31, _⟩ => ⟨S8388608, .f32⟩
  | .hbm, ⟨32, _⟩ => ⟨S8388608, .i1⟩
  | .hbm, ⟨33, _⟩ => ⟨S8388608, .f32⟩
  | .hbm, ⟨34, _⟩ => ⟨S8388608, .f32⟩
  | .hbm, ⟨35, _⟩ => ⟨S_, .f32⟩
  | .hbm, ⟨36, _⟩ => ⟨S_, .f32⟩
  | .hbm, ⟨37, _⟩ => ⟨S8388608, .f32⟩
  | .hbm, ⟨38, _⟩ => ⟨S8388608, .f32⟩
  | .hbm, ⟨39, _⟩ => ⟨S_, .f32⟩
  | .hbm, ⟨40, _⟩ => ⟨S8388608, .f32⟩
  | .hbm, ⟨41, _⟩ => ⟨S8388608, .f32⟩
  | .hbm, ⟨42, _⟩ => ⟨S8388608x1, .f32⟩
  | .hbm, ⟨43, _⟩ => ⟨S8388608x1, .f32⟩
  | .hbm, ⟨44, _⟩ => ⟨S8388608x5, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S8388608x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_v18 : Ref sig .tc := ⟨.hbm, 24, rfl⟩
abbrev main_cst_1 : Ref sig .tc := ⟨.hbm, 25, rfl⟩
abbrev main_call1_v0 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_call2_v0 : Ref sig .tc := ⟨.hbm, 36, rfl⟩
abbrev main_call2_v1 : Ref sig .tc := ⟨.hbm, 37, rfl⟩
abbrev main_v26 : Ref sig .tc := ⟨.hbm, 38, rfl⟩
abbrev main_cst_4 : Ref sig .tc := ⟨.hbm, 39, rfl⟩
abbrev main_call3_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  slices_S8388608x6_S8388608x3_0_0 : S8388608x6.Slices ![0, 0] S8388608x3
  slices_S8388608x4_S8388608x3_0_0 : S8388608x4.Slices ![0, 0] S8388608x3
  slices_S8388608x6_S8388608x1_0_3 : S8388608x6.Slices ![0, 3] S8388608x1
  shapeCasts_S8388608x1_S8388608 : S8388608x1.ShapeCasts S8388608
  slices_S8388608x6_S8388608x1_0_4 : S8388608x6.Slices ![0, 4] S8388608x1
  slices_S8388608x6_S8388608x1_0_5 : S8388608x6.Slices ![0, 5] S8388608x1
  slices_S8388608x4_S8388608x1_0_3 : S8388608x4.Slices ![0, 3] S8388608x1
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x3_S8388608x1_S8388608x1_S8388608x5_d1 : Shape.Concatenates [S8388608x3, S8388608x1, S8388608x1] S8388608x5 1
  reducesTo_S8388608x5_S_d0_1 : S8388608x5.ReducesTo [0, 1] S_
  h_S_ : 0 < S_.numel

variable [Facts₀]

class Facts : Prop extends Facts₀ where

variable [Facts]
-- ==== Proof.CaseValues.lean ====
/-
  What one step of the accumulation leaves in the output block, as a value.

  The kernel's body, at a grid point whose second coordinate is `i`, adds a one-hot block to the [1, 8, 128] output
  block: the tile's sum in slot `i mod 1024` (slot (r, l) has number 128 r + l), zero elsewhere. At the first step of
  a group (`i = 0`) the block is first reset to zeros, so the step leaves "zeros + one-hot"; at every other step it
  leaves "previous contents + one-hot". Both are the same pure term of the body (its last store's value) applied to
  different previous contents: the zero block, or what the step before left.
-/
import proofs.«118085_j14834817040526_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace QuantileLoss.Kernel

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A step that is not the first of its group: the block held `xo`; it ends holding `xo` plus the one-hot block of
    the tile's sum (the body's one covering store, its loads reading the whole buffers). -/
theorem out_B (c : Dev nD) (i : grid0.Coords) (a2 : Memref sig .tc .vmem S16384x6 .f32) (h2 : a2.IsWhole)
    (a3 : Memref sig .tc .vmem S16384x4 .f32) (h3 : a3.IsWhole) (a4 : Memref sig .tc .vmem S1x8x128 .f32) (h4 : a4.IsWhole)
    (hc : ¬cond0_0 i) (x0 : Vec F S16384x6 .f32) (x1 : Vec F S16384x4 .f32) (xo : Vec F S1x8x128 .f32) :
    out0_B_2 c i a2 h2 a3 h3 a4 h4 hc x0 x1 xo = k0_pay1 (BitVec.ofNat 32 (i 1).val) (k0_pay3 x0 x1) k0_pay4 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S16384x6) hz2,
    View.ld_unit_zero (S := S16384x4) hz2, View.ld_unit_zero (S := S1x8x128) hz3]

/-- The first step of a group: the block is reset to the zero block, read back, and ends holding the zero block plus
    the one-hot block of the tile's sum. -/
theorem out_A (c : Dev nD) (i : grid0.Coords) (a2 : Memref sig .tc .vmem S16384x6 .f32) (h2 : a2.IsWhole)
    (a3 : Memref sig .tc .vmem S16384x4 .f32) (h3 : a3.IsWhole) (a4 : Memref sig .tc .vmem S1x8x128 .f32) (h4 : a4.IsWhole)
    (hc : cond0_0 i) (x0 : Vec F S16384x6 .f32) (x1 : Vec F S16384x4 .f32) :
    out0_A_2 c i a2 h2 a3 h3 a4 h4 hc x0 x1 = k0_pay1 (BitVec.ofNat 32 (i 1).val) (k0_pay3 x0 x1) k0_pay4 k0_pay2 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, View.ld_unit_zero (S := S16384x6) hz2,
    View.ld_unit_zero (S := S16384x4) hz2, View.ld_unit_zero (S := S1x8x128) hz3]

end QuantileLoss.Kernel

end
-- ==== Proof.Slots.lean ====
/-
  One step of the accumulation, read at a slot, over the extended reals.

  The output block has 8 × 128 slots; slot (r, l) has number 128 r + l. At a grid point whose second coordinate is
  `g < 256` the body adds the tile's sum `s` to the slot whose number is `g mod 1024 = g` and adds zero to every other
  slot. So after the step, slot (r, l) holds its previous contents plus `s` if 128 r + l = g, and its previous contents
  otherwise. The reset block holds zero in every slot.
-/
import proofs.«118085_j14834817040526_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace QuantileLoss.Kernel

open Cert.KernelIdeal Cert.KernelIdeal.Gen

/-- The slot number of slot (r, l), as the body computes it: row number times 128 plus lane number. -/
theorem slot_word (r : Fin 8) (l : Fin 128) : k0_pay4 (ix2 r l) = BitVec.ofNat 32 (r.val * 128 + l.val) := by
  unfold k0_pay4
  show IntOp.addi (IntOp.muli (iota .tc S8x128 32 [0] iota_S8x128_d0_w32 (ix2 r l)) (128#32))
    (iota .tc S8x128 32 [1] iota_S8x128_d1_w32 (ix2 r l)) = _
  rw [iota_single_apply, iota_single_apply]
  show BitVec.ofNat 32 r.val * BitVec.ofNat 32 128 + BitVec.ofNat 32 l.val = _
  rw [BitVec.ofNat_add, BitVec.ofNat_mul]

/-- The step number reduced modulo 1024, with the sign correction of a floored remainder, as the body computes it. -/
def wrapped (arg1 : BitVec 32) : BitVec 32 :=
  let v43 : BitVec 1 := Scalar.cmpi .eq 1024#32 0#32
  let v44 : BitVec 32 := Scalar.select v43 1#32 1024#32
  let v45 : BitVec 32 := Scalar.remsi arg1 v44
  let v46 : BitVec 1 := Scalar.cmpi .ne v45 0#32
  let v47 : BitVec 1 := Scalar.cmpi .slt v45 0#32
  let v48 : BitVec 1 := Scalar.cmpi .slt v44 0#32
  let v49 : BitVec 1 := Scalar.xori v47 v48
  let v50 : BitVec 1 := Scalar.andi v49 v46
  let v51 : BitVec 32 := Scalar.addi v45 v44
  Scalar.select v50 v51 v45

/-- A step number below 256 is its own remainder modulo 1024. -/
theorem wrapped_eq : ∀ g : Fin 256, wrapped (BitVec.ofNat 32 g.val) = BitVec.ofNat 32 g.val := by
  decide +kernel

/-- The one-hot choice: comparing two small numbers as words is comparing them. -/
theorem select_eq_words {α : Type} (a b : Nat) (ha : a < 2 ^ 32) (hb : b < 2 ^ 32) (x y : α) :
    Scalar.select (IntOp.cmpi .eq (BitVec.ofNat 32 a) (BitVec.ofNat 32 b)) x y = if a = b then x else y := by
  unfold Scalar.select IntOp.cmpi
  by_cases h : a = b
  · subst h; simp
  · have hne : (BitVec.ofNat 32 a == BitVec.ofNat 32 b) = false := by
      rw [beq_eq_false_iff_ne]
      intro e
      apply h
      have := congrArg BitVec.toNat e
      rw [BitVec.toNat_ofNat, BitVec.toNat_ofNat, Nat.mod_eq_of_lt ha, Nat.mod_eq_of_lt hb] at this
      exact this
    simp [hne, h]

/-- The reset block is zero in every slot. -/
theorem reset_apply (j : S1x8x128.Idx) : k0_pay2 (F := Ideal) j = 0 := by
  unfold k0_pay2
  show Ideal.ofBits .f32 0x00000000#32 = 0
  exact Ideal.ofBits_zero_f32

/-- After a step with second coordinate `g` and tile sum `s`, slot (r, l) holds what it held plus `s` if its number
    is `g`, and what it held otherwise. -/
theorem step_apply (g : Fin 256) (s : Ideal .f32) (xo : Vec Ideal S1x8x128 .f32) (z : Fin 1) (r : Fin 8) (l : Fin 128) :
    k0_pay1 (F := Ideal) (BitVec.ofNat 32 g.val) s k0_pay4 xo (ix3 z r l)
      = xo (ix3 (0 : Fin 1) r l) + (if r.val * 128 + l.val = g.val then s else 0) := by
  unfold k0_pay1
  refine (shapeCast_ab_1ab_apply _ _ z r l).trans ?_
  show (shapeCast S8x128 xo shapeCasts_S1x8x128_S8x128 (ix2 r l) : EReal)
      + Scalar.select (IntOp.cmpi .eq (k0_pay4 (ix2 r l)) (wrapped (BitVec.ofNat 32 g.val))) s (Ideal.ofBits .f32 0x00000000#32) = _
  rw [shapeCast_1ab_ab_apply, slot_word, wrapped_eq,
    select_eq_words _ _ (by have := r.isLt; have := l.isLt; omega) (by have := g.isLt; omega), Ideal.ofBits_zero_f32]

end QuantileLoss.Kernel

end
-- ==== Proof.Accum.lean ====
/-
  The accumulator after each grid point, slot by slot, over the extended reals.

  The grid has 2 groups of 256 steps; point n is step n mod 256 of group n / 256 and reads tile n (rows 16384 n to
  16384 n + 16383). Each group accumulates into its own [1, 8, 128] block: the first step of a group resets the block, and
  step i adds tile sum number 256 (n / 256) + i to the slot whose number is i. So after point n, slot (r, l) of the current
  block holds the sum over the steps i ≤ n mod 256 taken so far of "tile sum i of this group, if 128 r + l = i, else 0".
-/
import proofs.«118085_j14834817040526_2_alg».proof.Proof.CaseValues
import proofs.«118085_j14834817040526_2_alg».proof.Proof.Slots

set_option maxRecDepth 16384

noncomputable section

open Idealize.ShloMosaic Idealize.ShloMosaic.TcCoe Idealize.SL.Sem Idealize.ShloMosaic.ValueIdx

namespace QuantileLoss.Kernel

open Cert.KernelIdeal Cert.KernelIdeal.Gen

variable (m : (ℓ : Loc nD τ sig) → Buf (Elt Ideal) ℓ)

/-- The second grid coordinate of point `t` is its step number within its group. -/
theorem coord1 : ∀ t : Fin cfg0.N, ((grid0.coords t) 1).val = t.val % 256 :=
  (by decide +kernel : ∀ t : Fin grid0.N, ((grid0.coords t) 1).val = t.val % 256)

/-- The sum of tile `t`'s loss terms, as the body computes it from the tile's two blocks. -/
def tileF (c : Dev nD) (t : Fin 512) : EReal :=
  k0_pay3 (F := Ideal) (iblk m c 0 ⟨t.val, lt_of_lt_of_eq t.isLt N_0.symm⟩) (iblk m c 1 ⟨t.val, lt_of_lt_of_eq t.isLt N_0.symm⟩)

/-- The same by the tile's number (zero past the last tile). -/
def tileSum (c : Dev nD) (n : ℕ) : EReal :=
  if h : n < 512 then tileF m c ⟨n, h⟩ else 0

/-- One grid point: the block ends at the step's update of the reset block (first step of a group) or of what the point
    before left (any other step). -/
theorem outsAt_step (c : Dev nD) (n : ℕ) (hn : n < cfg0.N) :
    outsAt0 m c n hn = k0_pay1 (F := Ideal) (BitVec.ofNat 32 (n % 256)) (tileSum m c n) k0_pay4
      (if h0 : n % 256 = 0 then k0_pay2 (F := Ideal) else outsAt0 m c (n - 1) (Nat.lt_of_le_of_lt (Nat.sub_le _ _) hn)) := by
  have hts : tileSum m c n = k0_pay3 (F := Ideal) (iblk m c 0 ⟨n, hn⟩) (iblk m c 1 ⟨n, hn⟩) :=
    dif_pos (lt_of_lt_of_eq hn N_0)
  have hco : ((grid0.coords (⟨n, hn⟩ : Fin cfg0.N)) 1).val = n % 256 := coord1 ⟨n, hn⟩
  by_cases h0 : n % 256 = 0
  · rw [dif_pos h0, hts, ← hco]
    exact (outsAt0_A m c ⟨n, hn⟩ h0).trans (out_A c _ _ _ _ _ _ _ _ _ _)
  · rw [dif_neg h0, hts, ← hco]
    exact (outsAt0_B m c ⟨n, hn⟩ h0).trans (out_B c _ _ _ _ _ _ _ _ _ _ _)

/-- The step at a slot, with the step number a plain natural below 256. -/
theorem step_slot (g : ℕ) (hg : g < 256) (s : Ideal .f32) (xo : Vec Ideal S1x8x128 .f32) (z : Fin 1) (r : Fin 8) (l : Fin 128) :
    k0_pay1 (F := Ideal) (BitVec.ofNat 32 g) s k0_pay4 xo (ix3 z r l)
      = xo (ix3 (0 : Fin 1) r l) + (if r.val * 128 + l.val = g then s else 0) :=
  step_apply ⟨g, hg⟩ s xo z r l

/-- After point `n`, slot (r, l) of the current block holds the tile sums of the steps taken so far in this group, each
    counted in the slot whose number is its step. -/
theorem outsAt_apply (c : Dev nD) : ∀ (n : ℕ) (hn : n < cfg0.N) (z : Fin 1) (r : Fin 8) (l : Fin 128),
    outsAt0 m c n hn (ix3 z r l)
      = ∑ i ∈ Finset.range (n % 256 + 1), (if r.val * 128 + l.val = i then tileSum m c (256 * (n / 256) + i) else 0) := by
  intro n
  induction n using Nat.strong_induction_on with
  | _ n ih =>
    intro hn z r l
    rw [outsAt_step m c n hn, step_slot (n % 256) (Nat.mod_lt _ (by norm_num))]
    by_cases h0 : n % 256 = 0
    · rw [dif_pos h0, reset_apply, zero_add, h0, Finset.sum_range_one]
      have e : 256 * (n / 256) + 0 = n := by omega
      rw [e]
    · rw [dif_neg h0]
      have e1 : (n - 1) % 256 + 1 = n % 256 := by omega
      have e2 : (n - 1) / 256 = n / 256 := by omega
      have e3 : 256 * (n / 256) + n % 256 = n := by omega
      rw [ih (n - 1) (by omega) (Nat.lt_of_le_of_lt (Nat.sub_le _ _) hn) 0 r l, e1, e2, Finset.sum_range_succ, e3]

end QuantileLoss.Kernel

end
-- ==== Proof.Blocks.lean ====
/-
  From the accumulator to the output array.

  The output array is [2, 8, 128]: block g belongs to group g, and is written back once, after the group's last step
  (point 256 g + 255). By then slot (r, l) of the block holds the sum over all 256 steps i of "tile sum 256 g + i if
  128 r + l = i, else 0". The two write-backs cover the whole array, so the array ends holding exactly that, slot by slot.
-/
import proofs.«118085_j14834817040526_2_alg».proof.Proof.Accum
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace QuantileLoss.Kernel

open Cert.KernelIdeal Cert.KernelIdeal.Gen

variable (m : (ℓ : Loc nD τ sig) → Buf (Elt Ideal) ℓ)

/-- The windows' block numbers at point `t`: both inputs read row block `t`; the output is block `t / 256`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 256 ∧ win0_2.index t (1 : Fin 3) = 0 ∧ win0_2.index t (2 : Fin 3) = 0 :=
  (by decide +kernel : ∀ t : Fin grid0.N, _)

/-- What the output array ends holding: at (g, r, l), the tile sums of group g's 256 steps, each counted in the slot
    whose number is its step. -/
def accArray (c : Dev nD) : S2x8x128.Idx → EReal := fun j =>
  ∑ i ∈ Finset.range 256, (if (j 1).val * 128 + (j 2).val = i then tileSum m c (256 * (j 0).val + i) else 0)

theorem accArray_apply (c : Dev nD) (g : Fin 2) (r : Fin 8) (l : Fin 128) :
    accArray m c (ix3 g r l) = ∑ i ∈ Finset.range 256, (if r.val * 128 + l.val = i then tileSum m c (256 * g.val + i) else 0) := rfl

/-- What a writing-back point writes back is its block of that array. -/
theorem flushed_eq (c : Dev nD) (t : Fin cfg0.N) (hf : (cfg0.win 2).flush t = true) :
    (dats m 0 c).flushed 2 t = ((cfg0.win 2).blk t).view.read (Elt Ideal) (accArray m c) := by
  have h255 : t.val % 256 = 255 := (flush0_2 t).mp hf
  have hN : t.val < 512 := lt_of_lt_of_eq t.isLt N_0
  obtain ⟨-, -, -, -, e0, e1, e2⟩ := idx_facts t
  show (cfg0.win 2).cut (grid0.coords t) ((dats m 0 c).after 2 t) = _
  rw [after0_2]
  refine funext (fun (j : S1x8x128.Idx) => ?_)
  obtain ⟨z, r, l, rfl⟩ : ∃ (z : Fin 1) (r : Fin 8) (l : Fin 128), j = ix3 z r l := ⟨j 0, j 1, j 2, eq_ix3 j⟩
  show outsAt0 m c t.val t.isLt (ix3 z r l) = accArray m c (((cfg0.win 2).blk t).view.emb (ix3 z r l))
  have hemb : ((cfg0.win 2).blk t).view.emb (ix3 z r l) = ix3 (⟨t.val / 256, by omega⟩ : Fin 2) r l := by
    funext a; apply Fin.ext
    match a with
    | ⟨0, _⟩ => show win0_2.index t (0 : Fin 3) * 1 + 1 * z.val = t.val / 256; have : z.val < 1 := z.isLt; omega
    | ⟨1, _⟩ => show win0_2.index t (1 : Fin 3) * 8 + 1 * r.val = r.val; omega
    | ⟨2, _⟩ => show win0_2.index t (2 : Fin 3) * 128 + 1 * l.val = l.val; omega
  rw [hemb, accArray_apply, outsAt_apply, h255]

/-- An index of the array is in point `t`'s block iff each coordinate is in the block's range on its axis. -/
theorem mem_blk (t : Fin cfg0.N) (i : S2x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_call0_v0).slice (win0_2.rect t)).set ↔ _
  rw [View.set_slice_whole, Rect.mem_set_unit]
  exact Iff.rfl

/-- Every index of the array is in the block of its group's last point. -/
theorem covered (i : S2x8x128.Idx) : ∃ t : Fin cfg0.N, (cfg0.win 2).flush t = true ∧ i ∈ ((cfg0.win 2).blk t).view.set := by
  have h0 : (i 0).val < 2 := (i 0).isLt
  have h1 : (i 1).val < 8 := (i 1).isLt
  have h2 : (i 2).val < 128 := (i 2).isLt
  have hlt : (i 0).val * 256 + 255 < cfg0.N := by rw [show cfg0.N = 512 from N_0]; omega
  refine ⟨⟨(i 0).val * 256 + 255, hlt⟩, (flush0_2 _).mpr (by show ((i 0).val * 256 + 255) % 256 = 255; omega), ?_⟩
  obtain ⟨-, -, -, -, e0, e1, e2⟩ := idx_facts ⟨(i 0).val * 256 + 255, hlt⟩
  have e0' : win0_2.index ⟨(i 0).val * 256 + 255, hlt⟩ (0 : Fin 3) = (i 0).val := by rw [e0]; show ((i 0).val * 256 + 255) / 256 = _; omega
  rw [mem_blk]
  intro a
  match a with
  | ⟨0, _⟩ => show win0_2.index ⟨(i 0).val * 256 + 255, hlt⟩ (0 : Fin 3) * 1 ≤ (i 0).val ∧ (i 0).val < win0_2.index ⟨(i 0).val * 256 + 255, hlt⟩ (0 : Fin 3) * 1 + 1; omega
  | ⟨1, _⟩ => show win0_2.index ⟨(i 0).val * 256 + 255, hlt⟩ (1 : Fin 3) * 8 ≤ (i 1).val ∧ (i 1).val < win0_2.index ⟨(i 0).val * 256 + 255, hlt⟩ (1 : Fin 3) * 8 + 8; omega
  | ⟨2, _⟩ => show win0_2.index ⟨(i 0).val * 256 + 255, hlt⟩ (2 : Fin 3) * 128 ≤ (i 2).val ∧ (i 2).val < win0_2.index ⟨(i 0).val * 256 + 255, hlt⟩ (2 : Fin 3) * 128 + 128; omega

/-- So the output array ends holding `accArray`. -/
theorem final_out (c : Dev nD) : (dats m 0 c).arrAt 2 cfg0.N = accArray m c :=
  (dats m 0 c).arrAt_eq_of_cover 2 (accArray m c) (flushed_eq m c) (covered)

end QuantileLoss.Kernel

end
-- ==== Proof.RowLoss.lean ====
/-
  The loss of one row, as a formula over scalars, at any float type.

  A row of predictions is `p = (p₀, p₁, p₂, mid, lo, hi)` and a row of targets is `q = (q₀, q₁, q₂, t)`.
  The row contributes five terms: the three squared gaps `(pₖ - qₖ)²`, a lower-range term
  (a penalty when `lo > mid`; nothing when `lo > 0.95 t`; otherwise `(lo - t)²`) and an upper-range
  term (a penalty when `hi < mid`; nothing when `hi < 1.05 t`; otherwise `(hi - t)²`).
  The whole loss is the sum of these terms over all rows, divided by the number of terms.
-/
import Idealize.ShloMosaic.PureOps.Ideal
import Idealize.ShloMosaic.Lib.ValueIdx

noncomputable section

namespace QuantileLoss

open Idealize.ShloMosaic Idealize.ShloMosaic.ValueIdx

variable {F : FTy → Type} [FloatOps F]

/-- The squared gap `(a - b)²`. -/
def sq (a b : F .f32) : F .f32 := FloatOps.mulf (FloatOps.subf a b) (FloatOps.subf a b)

/-- The lower-range term of a row: the penalty 1000 when `lo > mid`, zero when `lo > 0.95 t`, else `(lo - t)²`. -/
def lowerTerm (mid lo t : F .f32) : F .f32 :=
  Scalar.select (FloatOps.cmpf .ogt lo mid) (FloatOps.ofBits .f32 0x447A0000#32)
    (Scalar.select (FloatOps.cmpf .ogt lo (FloatOps.mulf t (FloatOps.ofBits .f32 0x3F733333#32)))
      (FloatOps.ofBits .f32 0x00000000#32) (sq lo t))

/-- The upper-range term of a row: the penalty 1000 when `hi < mid`, zero when `hi < 1.05 t`, else `(hi - t)²`. -/
def upperTerm (mid hi t : F .f32) : F .f32 :=
  Scalar.select (FloatOps.cmpf .olt hi mid) (FloatOps.ofBits .f32 0x447A0000#32)
    (Scalar.select (FloatOps.cmpf .olt hi (FloatOps.mulf t (FloatOps.ofBits .f32 0x3F866666#32)))
      (FloatOps.ofBits .f32 0x00000000#32) (sq hi t))

/-- Term `k` of a row's loss: columns 0, 1, 2 are the squared gaps, column 3 the lower-range term,
    column 4 the upper-range term. -/
def rowLoss (p : Fin 6 → F .f32) (q : Fin 4 → F .f32) (k : Fin 5) : F .f32 :=
  if h : k.val < 3 then sq (p ⟨k.val, by omega⟩) (q ⟨k.val, by omega⟩)
  else if k.val = 3 then lowerTerm (p 3) (p 4) (q 3)
  else upperTerm (p 3) (p 5) (q 3)

/-- Row `n` of a two-axis array. -/
abbrev rowOf {N C : Nat} (x : (⟨2, ![N, C]⟩ : Shape).Idx → F .f32) (n : Fin N) : Fin C → F .f32 :=
  fun a => x (ix2 n a)

/-- The sum of all the loss terms of `N` rows, over the extended reals. -/
def lossSum {N : Nat} (x0 : (⟨2, ![N, 6]⟩ : Shape).Idx → Ideal .f32) (x1 : (⟨2, ![N, 4]⟩ : Shape).Idx → Ideal .f32) : EReal :=
  ∑ n : Fin N, ∑ k : Fin 5, rowLoss (F := Ideal) (rowOf x0 n) (rowOf x1 n) k

end QuantileLoss

end
-- ==== Proof.TileLoss.lean ====
/-
  The sum of one tile's loss terms, over the extended reals.

  The body takes a tile of 16384 rows of predictions and targets, builds the [16384, 5] array of the rows' loss terms
  (three squared gaps, the lower-range term, the upper-range term, laid side by side), and sums all of it.
  Read at (row, column) the array is the scalar formula `rowLoss` of that row; a sum over every index of the
  array is the double sum over rows and columns.
-/
import proofs.«118085_j14834817040526_2_alg».proof.Proof.Gen.KernelIdeal.Skeleton
import proofs.«118085_j14834817040526_2_alg».proof.Proof.RowLoss
import Idealize.ShloMosaic.Lib.Pipeline.Value
import Idealize.ShloMosaic.Lib.ValueIdx
import Idealize.ShloMosaic.PureOps.Ideal.Laws

noncomputable section

open Idealize.ShloMosaic Idealize.ShloMosaic.ValueIdx

namespace QuantileLoss.Kernel

open Cert.KernelIdeal Cert.KernelIdeal.Gen QuantileLoss

variable {F : FTy → Type} [FloatOps F]

/-- A block of columns cut out of a two-axis array, read at (row, column): the array at the same row and the column
    moved by the block's offset. -/
theorem slice_cols_apply {α : Type} {N C W : Nat} (c0 : Nat) (v : (⟨2, ![N, C]⟩ : Shape).Idx → α)
    (h : (⟨2, ![N, C]⟩ : Shape).Slices ![0, c0] ⟨2, ![N, W]⟩) (r : Fin N) (w : Fin W) (c : Fin C) (hc : c.val = c0 + w.val) :
    extractStridedSlice ⟨2, ![N, W]⟩ ![0, c0] v h (ix2 r w) = v (ix2 r c) :=
  extractStridedSlice_apply _ v h _ _ (fun a => match a with
    | ⟨0, _⟩ => by show r.val = 0 + r.val; omega
    | ⟨1, _⟩ => hc)

/-- The three squared-gap columns of a tile. -/
def gapCols (v3 : Vec F S16384x6 .f32) (v4 : Vec F S16384x4 .f32) : FVec F S16384x3 .f32 :=
  have v5 : FVec F S16384x3 .f32 := extractStridedSlice S16384x3 ![0, 0] v3 slices_S16384x6_o0_0_S16384x3
  have v6 : FVec F S16384x3 .f32 := extractStridedSlice S16384x3 ![0, 0] v4 slices_S16384x4_o0_0_S16384x3
  have v7 : FVec F S16384x3 .f32 := subf v5 v6
  mulf v7 v7

/-- The lower-range column of a tile. -/
def lowerCol (v3 : Vec F S16384x6 .f32) (v4 : Vec F S16384x4 .f32) : FVec F S16384x1 .f32 :=
  have v9 : FVec F S16384x1 .f32 := extractStridedSlice S16384x1 ![0, 3] v3 slices_S16384x6_o0_3_S16384x1
  have v10 : FVec F S16384x1 .f32 := extractStridedSlice S16384x1 ![0, 4] v3 slices_S16384x6_o0_4_S16384x1
  have v12 : FVec F S16384x1 .f32 := extractStridedSlice S16384x1 ![0, 3] v4 slices_S16384x4_o0_3_S16384x1
  have v13 : IVec S16384x1 1 := cmpf .ogt v10 v9
  have cst : F .f32 := Scalar.ofBits .f32 0x3F733333#32
  have v14 : FVec F S16384x1 .f32 := broadcast S16384x1 cst
  have v15 : FVec F S16384x1 .f32 := mulf v12 v14
  have v16 : IVec S16384x1 1 := cmpf .ogt v10 v15
  have v17 : FVec F S16384x1 .f32 := subf v10 v12
  have v18 : FVec F S16384x1 .f32 := mulf v17 v17
  have cst_4 : F .f32 := Scalar.ofBits .f32 0x00000000#32
  have v19 : FVec F S16384x1 .f32 := broadcast S16384x1 cst_4
  have v20 : FVec F S16384x1 .f32 := select v16 v19 v18
  have cst_5 : F .f32 := Scalar.ofBits .f32 0x447A0000#32
  have v21 : FVec F S16384x1 .f32 := broadcast S16384x1 cst_5
  select v13 v21 v20

/-- The upper-range column of a tile. -/
def upperCol (v3 : Vec F S16384x6 .f32) (v4 : Vec F S16384x4 .f32) : FVec F S16384x1 .f32 :=
  have v9 : FVec F S16384x1 .f32 := extractStridedSlice S16384x1 ![0, 3] v3 slices_S16384x6_o0_3_S16384x1
  have v11 : FVec F S16384x1 .f32 := extractStridedSlice S16384x1 ![0, 5] v3 slices_S16384x6_o0_5_S16384x1
  have v12 : FVec F S16384x1 .f32 := extractStridedSlice S16384x1 ![0, 3] v4 slices_S16384x4_o0_3_S16384x1
  have v23 : IVec S16384x1 1 := cmpf .olt v11 v9
  have cst_6 : F .f32 := Scalar.ofBits .f32 0x3F866666#32
  have v24 : FVec F S16384x1 .f32 := broadcast S16384x1 cst_6
  have v25 : FVec F S16384x1 .f32 := mulf v12 v24
  have v26 : IVec S16384x1 1 := cmpf .olt v11 v25
  have v27 : FVec F S16384x1 .f32 := subf v11 v12
  have v28 : FVec F S16384x1 .f32 := mulf v27 v27
  have cst_7 : F .f32 := Scalar.ofBits .f32 0x00000000#32
  have v29 : FVec F S16384x1 .f32 := broadcast S16384x1 cst_7
  have v30 : FVec F S16384x1 .f32 := select v26 v29 v28
  have cst_8 : F .f32 := Scalar.ofBits .f32 0x447A0000#32
  have v31 : FVec F S16384x1 .f32 := broadcast S16384x1 cst_8
  select v23 v31 v30

/-- The tile's [16384, 5] array of loss terms, as the body builds it: the three blocks of columns side by side. -/
def lossTile (v3 : Vec F S16384x6 .f32) (v4 : Vec F S16384x4 .f32) : FVec F S16384x5 .f32 :=
  concatenate S16384x5 1 [⟨S16384x3, gapCols v3 v4⟩, ⟨S16384x1, lowerCol v3 v4⟩, ⟨S16384x1, upperCol v3 v4⟩]
    concatenates_S16384x3_S16384x1_S16384x1_S16384x5_d1

/-- The body's tile sum is the sum of every entry of that array (the reduction runs over both axes of the tile). -/
theorem tileSum_eq_sum (v3 : Vec Ideal S16384x6 .f32) (v4 : Vec Ideal S16384x4 .f32) :
    k0_pay3 (F := Ideal) v3 v4 = ∑ j : S16384x5.Idx, lossTile (F := Ideal) v3 v4 j := by
  unfold k0_pay3
  show (multiReduction .add [1, 2] S1 (shapeCast S1x16384x5 (lossTile (F := Ideal) v3 v4) shapeCasts_S16384x5_S1x16384x5)
    0x00000000#32 reduces_S1x16384x5_S1 (.inl rfl) rfl) _ = _
  refine (Ideal.multiReduction_add_total (shapeCast S1x16384x5 (lossTile (F := Ideal) v3 v4) shapeCasts_S16384x5_S1x16384x5)
    0x00000000#32 reduces_S1x16384x5_S1 (fun b => by fin_cases b; rfl) (.inl rfl) rfl _).trans ?_
  unfold shapeCast
  exact Equiv.sum_comp (Shape.reshapeEquiv _) (lossTile (F := Ideal) v3 v4)

/-- Columns 0, 1, 2 of the tile's array: the squared gap of that column's prediction and target. -/
theorem lossTile_gap (v3 : Vec F S16384x6 .f32) (v4 : Vec F S16384x4 .f32) (r : Fin 16384) (k : Fin 5) (hk : k.val < 3) :
    lossTile v3 v4 (ix2 r k) = rowLoss (rowOf v3 r) (rowOf v4 r) k := by
  unfold lossTile
  refine (concatenate_apply_piece (t := S16384x5) (1 : Fin 2) [⟨S16384x3, gapCols v3 v4⟩, ⟨S16384x1, lowerCol v3 v4⟩, ⟨S16384x1, upperCol v3 v4⟩]
    concatenates_S16384x3_S16384x1_S16384x1_S16384x5_d1 (ix2 r k) 0 (by show 0 < 3; omega)
    S16384x3 (gapCols v3 v4) rfl rfl 0 rfl (ix2 r ⟨k.val, hk⟩) (fun b hb => ?_) ?_).trans ?_
  · match b with
    | ⟨0, _⟩ => rfl
    | ⟨1, _⟩ => exact absurd rfl hb
  · show 0 + k.val = k.val; omega
  · unfold rowLoss gapCols
    rw [dif_pos hk]
    show FloatOps.mulf (FloatOps.subf (extractStridedSlice S16384x3 ![0, 0] v3 slices_S16384x6_o0_0_S16384x3 (ix2 r ⟨k.val, hk⟩))
        (extractStridedSlice S16384x3 ![0, 0] v4 slices_S16384x4_o0_0_S16384x3 (ix2 r ⟨k.val, hk⟩)))
      (FloatOps.subf (extractStridedSlice S16384x3 ![0, 0] v3 slices_S16384x6_o0_0_S16384x3 (ix2 r ⟨k.val, hk⟩))
        (extractStridedSlice S16384x3 ![0, 0] v4 slices_S16384x4_o0_0_S16384x3 (ix2 r ⟨k.val, hk⟩))) = _
    rw [slice_cols_apply 0 v3 _ r ⟨k.val, hk⟩ ⟨k.val, by omega⟩ (by show k.val = 0 + k.val; omega),
      slice_cols_apply 0 v4 _ r ⟨k.val, hk⟩ ⟨k.val, by omega⟩ (by show k.val = 0 + k.val; omega)]
    rfl

/-- Column 3 of the tile's array: the row's lower-range term. -/
theorem lossTile_lower (v3 : Vec F S16384x6 .f32) (v4 : Vec F S16384x4 .f32) (r : Fin 16384) (k : Fin 5) (hk : k.val = 3) :
    lossTile v3 v4 (ix2 r k) = rowLoss (rowOf v3 r) (rowOf v4 r) k := by
  unfold lossTile
  refine (concatenate_apply_piece (t := S16384x5) (1 : Fin 2) [⟨S16384x3, gapCols v3 v4⟩, ⟨S16384x1, lowerCol v3 v4⟩, ⟨S16384x1, upperCol v3 v4⟩]
    concatenates_S16384x3_S16384x1_S16384x1_S16384x5_d1 (ix2 r k) 1 (by show 1 < 3; omega)
    S16384x1 (lowerCol v3 v4) rfl rfl 3 rfl (ix2 r (0 : Fin 1)) (fun b hb => ?_) ?_).trans ?_
  · match b with
    | ⟨0, _⟩ => rfl
    | ⟨1, _⟩ => exact absurd rfl hb
  · show 3 + 0 = k.val; omega
  · unfold rowLoss lowerCol
    rw [dif_neg (by omega), if_pos hk]
    show Scalar.select (FloatOps.cmpf .ogt (extractStridedSlice S16384x1 ![0, 4] v3 slices_S16384x6_o0_4_S16384x1 (ix2 r (0 : Fin 1)))
          (extractStridedSlice S16384x1 ![0, 3] v3 slices_S16384x6_o0_3_S16384x1 (ix2 r (0 : Fin 1))))
        (FloatOps.ofBits .f32 0x447A0000#32)
        (Scalar.select (FloatOps.cmpf .ogt (extractStridedSlice S16384x1 ![0, 4] v3 slices_S16384x6_o0_4_S16384x1 (ix2 r (0 : Fin 1)))
            (FloatOps.mulf (extractStridedSlice S16384x1 ![0, 3] v4 slices_S16384x4_o0_3_S16384x1 (ix2 r (0 : Fin 1))) (FloatOps.ofBits .f32 0x3F733333#32)))
          (FloatOps.ofBits .f32 0x00000000#32)
          (FloatOps.mulf (FloatOps.subf (extractStridedSlice S16384x1 ![0, 4] v3 slices_S16384x6_o0_4_S16384x1 (ix2 r (0 : Fin 1)))
              (extractStridedSlice S16384x1 ![0, 3] v4 slices_S16384x4_o0_3_S16384x1 (ix2 r (0 : Fin 1))))
            (FloatOps.subf (extractStridedSlice S16384x1 ![0, 4] v3 slices_S16384x6_o0_4_S16384x1 (ix2 r (0 : Fin 1)))
              (extractStridedSlice S16384x1 ![0, 3] v4 slices_S16384x4_o0_3_S16384x1 (ix2 r (0 : Fin 1)))))) = _
    rw [slice_cols_apply 4 v3 _ r (0 : Fin 1) (4 : Fin 6) rfl, slice_cols_apply 3 v3 _ r (0 : Fin 1) (3 : Fin 6) rfl,
      slice_cols_apply 3 v4 _ r (0 : Fin 1) (3 : Fin 4) rfl]
    rfl

/-- Column 4 of the tile's array: the row's upper-range term. -/
theorem lossTile_upper (v3 : Vec F S16384x6 .f32) (v4 : Vec F S16384x4 .f32) (r : Fin 16384) (k : Fin 5) (hk : k.val = 4) :
    lossTile v3 v4 (ix2 r k) = rowLoss (rowOf v3 r) (rowOf v4 r) k := by
  unfold lossTile
  refine (concatenate_apply_piece (t := S16384x5) (1 : Fin 2) [⟨S16384x3, gapCols v3 v4⟩, ⟨S16384x1, lowerCol v3 v4⟩, ⟨S16384x1, upperCol v3 v4⟩]
    concatenates_S16384x3_S16384x1_S16384x1_S16384x5_d1 (ix2 r k) 2 (by show 2 < 3; omega)
    S16384x1 (upperCol v3 v4) rfl rfl 4 rfl (ix2 r (0 : Fin 1)) (fun b hb => ?_) ?_).trans ?_
  · match b with
    | ⟨0, _⟩ => rfl
    | ⟨1, _⟩ => exact absurd rfl hb
  · show 4 + 0 = k.val; omega
  · unfold rowLoss upperCol
    rw [dif_neg (by omega), if_neg (by omega)]
    show Scalar.select (FloatOps.cmpf .olt (extractStridedSlice S16384x1 ![0, 5] v3 slices_S16384x6_o0_5_S16384x1 (ix2 r (0 : Fin 1)))
          (extractStridedSlice S16384x1 ![0, 3] v3 slices_S16384x6_o0_3_S16384x1 (ix2 r (0 : Fin 1))))
        (FloatOps.ofBits .f32 0x447A0000#32)
        (Scalar.select (FloatOps.cmpf .olt (extractStridedSlice S16384x1 ![0, 5] v3 slices_S16384x6_o0_5_S16384x1 (ix2 r (0 : Fin 1)))
            (FloatOps.mulf (extractStridedSlice S16384x1 ![0, 3] v4 slices_S16384x4_o0_3_S16384x1 (ix2 r (0 : Fin 1))) (FloatOps.ofBits .f32 0x3F866666#32)))
          (FloatOps.ofBits .f32 0x00000000#32)
          (FloatOps.mulf (FloatOps.subf (extractStridedSlice S16384x1 ![0, 5] v3 slices_S16384x6_o0_5_S16384x1 (ix2 r (0 : Fin 1)))
              (extractStridedSlice S16384x1 ![0, 3] v4 slices_S16384x4_o0_3_S16384x1 (ix2 r (0 : Fin 1))))
            (FloatOps.subf (extractStridedSlice S16384x1 ![0, 5] v3 slices_S16384x6_o0_5_S16384x1 (ix2 r (0 : Fin 1)))
              (extractStridedSlice S16384x1 ![0, 3] v4 slices_S16384x4_o0_3_S16384x1 (ix2 r (0 : Fin 1)))))) = _
    rw [slice_cols_apply 5 v3 _ r (0 : Fin 1) (5 : Fin 6) rfl, slice_cols_apply 3 v3 _ r (0 : Fin 1) (3 : Fin 6) rfl,
      slice_cols_apply 3 v4 _ r (0 : Fin 1) (3 : Fin 4) rfl]
    rfl

/-- The tile's array read at (row, column) is the scalar formula of that row. -/
theorem lossTile_apply (v3 : Vec F S16384x6 .f32) (v4 : Vec F S16384x4 .f32) (r : Fin 16384) (k : Fin 5) :
    lossTile v3 v4 (ix2 r k) = rowLoss (rowOf v3 r) (rowOf v4 r) k := by
  by_cases h3 : k.val < 3
  · exact lossTile_gap v3 v4 r k h3
  · by_cases h4 : k.val = 3
    · exact lossTile_lower v3 v4 r k h4
    · exact lossTile_upper v3 v4 r k (by have := k.isLt; omega)

/-- The body's tile sum is the double sum, over the tile's rows and the five columns, of the rows' loss terms. -/
theorem tileSum_eq (v3 : Vec Ideal S16384x6 .f32) (v4 : Vec Ideal S16384x4 .f32) :
    k0_pay3 (F := Ideal) v3 v4 = ∑ r : Fin 16384, ∑ k : Fin 5, rowLoss (F := Ideal) (rowOf v3 r) (rowOf v4 r) k := by
  rw [tileSum_eq_sum, sum_idx2]
  exact Finset.sum_congr rfl fun r _ => Finset.sum_congr rfl fun k _ => lossTile_apply v3 v4 r k

end QuantileLoss.Kernel

end
-- ==== Proof.LibBlockSums.lean ====
/-
  Three re-indexing lemmas for finite sums in an additive commutative monoid.

  * A sum over the indices of a three-axis shape is the triple sum over the three coordinates.
  * A sum over `A * B` rows is the sum over `A` blocks of the sums over the `B` rows of each block
    (row `t * B + r` is row `r` of block `t`).
  * `G` groups of `K` terms each, group `g`'s terms placed in the first `K` slots of an `R × L` array of slots
    (slot `(r, l)` has number `r * L + l`, and a term is selected for a slot by comparing its number with the slot's):
    summing every slot of every group gives the sum of all `G * K` terms.

  Nothing here depends on what the terms are; the lemmas hold in every additive commutative monoid.
-/
import Mathlib
import Idealize.ShloMosaic.Lib.ValueIdx

open scoped BigOperators

namespace BlockSums

open Idealize.ShloMosaic Idealize.ShloMosaic.ValueIdx

variable {M : Type*} [AddCommMonoid M]

/-- A rank-3 index set is the product of its three coordinate ranges. -/
def idxEquiv3 {n0 n1 n2 : Nat} : (⟨3, ![n0, n1, n2]⟩ : Shape).Idx ≃ Fin n0 × Fin n1 × Fin n2 where
  toFun j := (j 0, j 1, j 2)
  invFun p := ix3 p.1 p.2.1 p.2.2
  left_inv j := (eq_ix3 j).symm
  right_inv _ := rfl

/-- a sum over the indices of a three-axis shape is the triple sum over its coordinates -/
theorem sum_idx3 {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Row `r` of block `t`, numbered `t * B + r`, is one of the `A * B` rows. -/
theorem block_row_lt {A B : Nat} (t : Fin A) (r : Fin B) : t.val * B + r.val < A * B :=
  calc t.val * B + r.val < t.val * B + B := Nat.add_lt_add_left r.isLt _
    _ = (t.val + 1) * B := (Nat.succ_mul _ _).symm
    _ ≤ A * B := Nat.mul_le_mul_right _ t.isLt

/-- a sum over N = A·B rows is the sum over A blocks of the sum over the B rows of a block -/
theorem sum_blocks (A B N : Nat) (hN : N = A * B) (g : Fin N → M) :
    ∑ n : Fin N, g n = ∑ t : Fin A, ∑ r : Fin B, g ⟨t.val * B + r.val, by subst hN; exact block_row_lt t r⟩ := by
  subst hN
  rw [← finProdFinEquiv.sum_comp, Fintype.sum_prod_type]
  refine Finset.sum_congr rfl fun t _ => Finset.sum_congr rfl fun r _ => ?_
  congr 1
  apply Fin.ext
  show r.val + B * t.val = t.val * B + r.val
  rw [Nat.mul_comm, Nat.add_comm]

/-- One group: the first `K` terms of a sequence, term `i` selected for the slot numbered `i` of an `R × L` array of
    slots (slot `(r, l)` has number `r * L + l`); when the array has at least `K` slots, summing every slot gives the
    sum of the `K` terms, since each `i < K` is the number of exactly one slot. -/
theorem sum_onehot_slots (R L K : Nat) (hK : K ≤ R * L) (c : Nat → M) :
    ∑ r : Fin R, ∑ l : Fin L, ∑ i ∈ Finset.range K, (if r.val * L + l.val = i then c i else 0)
      = ∑ i ∈ Finset.range K, c i :=
  calc ∑ r : Fin R, ∑ l : Fin L, ∑ i ∈ Finset.range K, (if r.val * L + l.val = i then c i else 0)
      = ∑ r : Fin R, ∑ l : Fin L,
          (fun n : Fin (R * L) => if n.val < K then c n.val else 0) ⟨r.val * L + l.val, block_row_lt r l⟩ := by
        refine Finset.sum_congr rfl fun r _ => Finset.sum_congr rfl fun l _ => ?_
        rw [Finset.sum_ite_eq]
        simp only [Finset.mem_range]
    _ = ∑ n : Fin (R * L), (if n.val < K then c n.val else 0) :=
        (sum_blocks R L (R * L) rfl (fun n : Fin (R * L) => if n.val < K then c n.val else 0)).symm
    _ = ∑ n ∈ Finset.range (R * L), (if n < K then c n else 0) :=
        Fin.sum_univ_eq_sum_range (fun n => if n < K then c n else 0) (R * L)
    _ = ∑ n ∈ Finset.range K, (if n < K then c n else 0) := by
        refine (Finset.sum_subset (Finset.range_subset_range.mpr hK) fun n _ hn => ?_).symm
        exact if_neg fun h => hn (Finset.mem_range.mpr h)
    _ = ∑ n ∈ Finset.range K, c n :=
        Finset.sum_congr rfl fun n hn => if_pos (Finset.mem_range.mp hn)

/-- G groups of K tile sums, group g's sums parked in the first K slots of an R×L slot array (slot (r,l) has number
    r·L + l, one-hot by the slot number): summing every slot of every group gives the sum of all the tile sums -/
theorem sum_slots (G R L K N : Nat) (hK : K ≤ R * L) (hN : N = G * K) (F : Fin N → M) :
    ∑ g : Fin G, ∑ r : Fin R, ∑ l : Fin L, ∑ i ∈ Finset.range K,
        (if r.val * L + l.val = i then (if h : K * g.val + i < N then F ⟨K * g.val + i, h⟩ else 0) else 0)
      = ∑ t : Fin N, F t := by
  rw [sum_blocks G K N hN F]
  refine Finset.sum_congr rfl fun g _ => ?_
  refine (sum_onehot_slots R L K hK
    (fun i => if h : K * g.val + i < N then F ⟨K * g.val + i, h⟩ else 0)).trans ?_
  rw [← Fin.sum_univ_eq_sum_range (fun i => if h : K * g.val + i < N then F ⟨K * g.val + i, h⟩ else 0) K]
  refine Finset.sum_congr rfl fun i _ => ?_
  have h : K * g.val + i.val < N := by
    rw [hN, Nat.mul_comm K g.val]
    exact block_row_lt g i
  rw [dif_pos h]
  congr 1
  apply Fin.ext
  show K * g.val + i.val = g.val * K + i.val
  rw [Nat.mul_comm]

end BlockSums
-- ==== Proof.KernelValue.lean ====
/-
  The kernel's result, over the extended reals.

  Summing the output array over all its slots gives the sum of all 512 tile sums (each tile sum sits in exactly one slot,
  every other slot holds zero); a tile sum is the sum of its 16384 rows' loss terms, and tile t's rows are rows
  16384 t … 16384 t + 16383 of the argument arrays; so the sum of the array is the sum of every row's loss terms. The
  lines after the kernel add that sum to a zero initial value and divide by the number of terms.
-/
import proofs.«118085_j14834817040526_2_alg».proof.Proof.Blocks
import proofs.«118085_j14834817040526_2_alg».proof.Proof.TileLoss
import proofs.«118085_j14834817040526_2_alg».proof.Proof.LibBlockSums
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace QuantileLoss.Kernel

open Cert.KernelIdeal Cert.KernelIdeal.Gen QuantileLoss

variable (m : (ℓ : Loc nD τ sig) → Buf (Elt Ideal) ℓ) (ρ : Dev nD → PrngReg)

/-- The predictions and the targets on core `c`, as arrays indexed by (row, column). -/
abbrev preds (c : Dev nD) : S8388608x6.Idx → Ideal .f32 := m ((c.tc : Thread nD τ).loc main_arg0)
abbrev targets (c : Dev nD) : S8388608x4.Idx → Ideal .f32 := m ((c.tc : Thread nD τ).loc main_arg1)

/-- Row `r` of the predictions' block at point `t` is row `16384 t + r` of the predictions. -/
theorem iblk0_row (c : Dev nD) (t : Fin cfg0.N) (r : Fin 16384) (n : Fin 8388608) (hn : n.val = t.val * 16384 + r.val) :
    rowOf (N := 16384) (C := 6) (iblk m c 0 t) r = rowOf (N := 8388608) (C := 6) (preds m c) n := by
  obtain ⟨e0, e1, -, -, -, -, -⟩ := idx_facts t
  funext a
  show iblk m c 0 t (ix2 r a) = preds m c (ix2 n a)
  unfold iblk
  rw [View.read_apply]
  show V m c main_arg0 _ = m ((c.tc : Thread nD τ).loc main_arg0) _
  rw [V_main_arg0]
  congr 1
  funext b
  apply Fin.ext
  match b with
  | ⟨0, _⟩ => show win0_0.index t (0 : Fin 2) * 16384 + 1 * r.val = n.val; omega
  | ⟨1, _⟩ => show win0_0.index t (1 : Fin 2) * 6 + 1 * a.val = a.val; omega

/-- Row `r` of the targets' block at point `t` is row `16384 t + r` of the targets. -/
theorem iblk1_row (c : Dev nD) (t : Fin cfg0.N) (r : Fin 16384) (n : Fin 8388608) (hn : n.val = t.val * 16384 + r.val) :
    rowOf (N := 16384) (C := 4) (iblk m c 1 t) r = rowOf (N := 8388608) (C := 4) (targets m c) n := by
  obtain ⟨-, -, e0, e1, -, -, -⟩ := idx_facts t
  funext a
  show iblk m c 1 t (ix2 r a) = targets m c (ix2 n a)
  unfold iblk
  rw [View.read_apply]
  show V m c main_arg1 _ = m ((c.tc : Thread nD τ).loc main_arg1) _
  rw [V_main_arg1]
  congr 1
  funext b
  apply Fin.ext
  match b with
  | ⟨0, _⟩ => show win0_1.index t (0 : Fin 2) * 16384 + 1 * r.val = n.val; omega
  | ⟨1, _⟩ => show win0_1.index t (1 : Fin 2) * 4 + 1 * a.val = a.val; omega

/-- A tile's sum is the sum of the loss terms of its 16384 rows of the argument arrays. -/
theorem tileF_eq (c : Dev nD) (t : Fin 512) :
    tileF m c t = ∑ r : Fin 16384, ∑ k : Fin 5, rowLoss (F := Ideal)
      (rowOf (N := 8388608) (C := 6) (preds m c) ⟨t.val * 16384 + r.val, BlockSums.block_row_lt t r⟩)
      (rowOf (N := 8388608) (C := 4) (targets m c) ⟨t.val * 16384 + r.val, BlockSums.block_row_lt t r⟩) k := by
  unfold tileF
  rw [tileSum_eq]
  refine Finset.sum_congr rfl fun r _ => ?_
  rw [iblk0_row m c ⟨t.val, lt_of_lt_of_eq t.isLt N_0.symm⟩ r ⟨t.val * 16384 + r.val, BlockSums.block_row_lt t r⟩ rfl,
    iblk1_row m c ⟨t.val, lt_of_lt_of_eq t.isLt N_0.symm⟩ r ⟨t.val * 16384 + r.val, BlockSums.block_row_lt t r⟩ rfl]

/-- The sum of every slot of the output array is the sum of every row's loss terms. -/
theorem sum_accArray (c : Dev nD) :
    ∑ j : S2x8x128.Idx, accArray m c j
      = lossSum (N := 8388608) (preds m c) (targets m c) := by
  rw [BlockSums.sum_idx3]
  refine (BlockSums.sum_slots 2 8 128 256 512 (by norm_num) (by norm_num) (tileF m c)).trans ?_
  unfold lossSum
  rw [BlockSums.sum_blocks 512 16384 8388608 (by norm_num)]
  exact Finset.sum_congr rfl fun t _ => tileF_eq m c t

/-- What @main's result buffer holds after the lines that follow the kernel. -/
theorem tail_value (c : Dev nD) :
    Pipeline.afterTail₀ cfgs (dats m) 0 (V0 m) [hostOps1] c main_v0
      = Host.divf (Host.reduceAdd (accArray m c) (constant (F := Ideal) S_ .f32 0x00000000#32) reducesTo_S2x8x128_S_d0_1_2 h_S_)
          (constant (F := Ideal) S_ .f32 0x4C200000#32) := by
  unfold Pipeline.afterTail₀
  show StableHlo.after hostOps1 _ (Proc.devRef .tc main_v0) = _
  have e : Pipeline.withArrays (cfgs 0).spec c (V0 m c) (fun w => (dats m 0 c).arrAt w (cfgs 0).N) (Proc.devRef .tc main_call0_v0)
      = accArray m c := (Pipeline.withArrays_arr spec0 launch0.win.arr_inj c _ _ 2).trans (final_out m c)
  after_results
  show Host.divf (Host.reduceAdd (Pipeline.withArrays (cfgs 0).spec c (V0 m c) (fun w => (dats m 0 c).arrAt w (cfgs 0).N) (Proc.devRef .tc main_call0_v0))
      (constant (F := Ideal) S_ .f32 0x00000000#32) reducesTo_S2x8x128_S_d0_1_2 h_S_) (constant (F := Ideal) S_ .f32 0x4C200000#32) = _
  rw [e]

/-- The lines after the kernel, read: a zero initial value plus the sum of the output array, divided by the number of
    terms; the sum of the array is the sum of every row's loss terms. -/
theorem tail_apply (c : Dev nD) (i : S_.Idx) :
    Host.divf (Host.reduceAdd (accArray m c) (constant (F := Ideal) S_ .f32 0x00000000#32) reducesTo_S2x8x128_S_d0_1_2 h_S_)
        (constant (F := Ideal) S_ .f32 0x4C200000#32) i
      = FloatOps.hostDivf (F := Ideal) (Ideal.ofBits .f32 0x00000000#32 + lossSum (N := 8388608) (preds m c) (targets m c))
          (Ideal.ofBits .f32 0x4C200000#32) := by
  have hsum : Host.reduceAdd (accArray m c) (constant (F := Ideal) S_ .f32 0x00000000#32) reducesTo_S2x8x128_S_d0_1_2 h_S_ i
      = Ideal.ofBits .f32 0x00000000#32 + ∑ j : S2x8x128.Idx, accArray m c j := by
    simp only [Host.reduceAdd, Ideal.hostReduceAdd_def]
    exact Ideal.hostReduceAdd_total reducesTo_S2x8x128_S_d0_1_2 (fun b => b.elim0) (accArray m c) _ i
  show FloatOps.hostDivf (F := Ideal) (Host.reduceAdd (accArray m c) (constant (F := Ideal) S_ .f32 0x00000000#32) reducesTo_S2x8x128_S_d0_1_2 h_S_ i)
    (Ideal.ofBits .f32 0x4C200000#32) = _
  rw [hsum, sum_accArray]

/-- The mean loss of the argument arrays on core `c`, as a rank-zero result. -/
abbrev meanLoss (c : Dev nD) : Buf (Elt Ideal) ((c.tc : Thread nD τ).loc main_v0) := fun _ =>
  FloatOps.hostDivf (F := Ideal) (Ideal.ofBits .f32 0x00000000#32 + lossSum (N := 8388608) (preds m c) (targets m c))
    (Ideal.ofBits .f32 0x4C200000#32)

/-- The kernel's run, read: every weakly fair execution ends with the result at the mean loss of the arguments and the
    arguments unchanged. -/
theorem run : θ_run defs (onTc (τ := τ) (main (F := Ideal))) ⟨m, fun _ => 0, ρ⟩ fun r => ∀ c : Dev nD,
      r.2.mem ((c.tc : Thread nD τ).loc main_v0) = meanLoss m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v0 (Pipeline.mem_restRefs_of main_v0 rfl (fun w => by fin_cases w <;> decide))).trans
        ((tail_value m c).trans (funext (tail_apply m c))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end QuantileLoss.Kernel

end
-- ==== Proof.RefRows.lean ====
/-
  The reference program, read one row at a time.

  The reference builds an array with five columns from the predictions and the targets: columns 0, 1, 2 hold the
  squared gaps, column 3 the lower-range term and column 4 the upper-range term of each row. This module proves
  that the entry at row n and column k of that array is term k of the row's loss, as the scalar formula
  rowLoss states it, at every float type; and that over the extended reals the reference's result is the
  initial value zero plus the sum of all the terms of all the rows, divided by the number of terms.
-/
import proofs.«118085_j14834817040526_2_alg».proof.Proof.Gen.ReferenceIdeal.Read
import proofs.«118085_j14834817040526_2_alg».proof.Proof.RowLoss
import Idealize.ShloMosaic.Lib.Pipeline.Value
import Idealize.ShloMosaic.Lib.ValueIdx
import Idealize.ShloMosaic.PureOps.Ideal.Laws

noncomputable section

namespace QuantileLoss.Ref

open Cert.ReferenceIdeal Cert.ReferenceIdeal.Gen Cert.ReferenceIdeal.Read QuantileLoss Idealize.ShloMosaic
  Idealize.ShloMosaic.ValueIdx

variable {F : FTy → Type} [FloatOps F]

/-! ## The index maps of the layout operations, composed -/

/-- Columns 0, 1, 2 of the predictions, cut out as a three-column array: entry (n, c) is entry (n, c). -/
theorem idx_sq0 (n : Fin 8388608) (c : Fin 3) :
    idx_main_v0 (ix2 n c) = ix2 n (⟨c.val, by omega⟩ : Fin 6) := by
  funext a; match a with | ⟨0, _⟩ => rfl | ⟨1, _⟩ => rfl

/-- Columns 0, 1, 2 of the targets, cut out as a three-column array: entry (n, c) is entry (n, c). -/
theorem idx_sq1 (n : Fin 8388608) (c : Fin 3) :
    idx_main_v1 (ix2 n c) = ix2 n (⟨c.val, by omega⟩ : Fin 4) := by
  funext a; match a with | ⟨0, _⟩ => rfl | ⟨1, _⟩ => rfl

/-- Column 3 of the predictions as a vector: entry n is entry (n, 3). -/
theorem idx_mid (n : Fin 8388608) : idx_main_v4 (idx_main_v5 (ix1 n)) = ix2 n (3 : Fin 6) := by
  funext a; match a with | ⟨0, _⟩ => exact Fin.ext (Nat.div_one _) | ⟨1, _⟩ => rfl

/-- Column 4 of the predictions as a vector: entry n is entry (n, 4). -/
theorem idx_lo (n : Fin 8388608) : idx_main_v6 (idx_main_v7 (ix1 n)) = ix2 n (4 : Fin 6) := by
  funext a; match a with | ⟨0, _⟩ => exact Fin.ext (Nat.div_one _) | ⟨1, _⟩ => rfl

/-- Column 5 of the predictions as a vector: entry n is entry (n, 5). -/
theorem idx_hi (n : Fin 8388608) : idx_main_v8 (idx_main_v9 (ix1 n)) = ix2 n (5 : Fin 6) := by
  funext a; match a with | ⟨0, _⟩ => exact Fin.ext (Nat.div_one _) | ⟨1, _⟩ => rfl

/-- Column 3 of the targets as a vector: entry n is entry (n, 3). -/
theorem idx_t (n : Fin 8388608) : idx_main_v10 (idx_main_v11 (ix1 n)) = ix2 n (3 : Fin 4) := by
  funext a; match a with | ⟨0, _⟩ => exact Fin.ext (Nat.div_one _) | ⟨1, _⟩ => rfl

/-- A vector made a one-column array: entry (n, 0) is entry n. -/
theorem idx_col28 (n : Fin 8388608) : idx_main_v28 (ix2 n (0 : Fin 1)) = ix1 n := by
  funext a; match a with | ⟨0, _⟩ => rfl

/-- A vector made a one-column array: entry (n, 0) is entry n. -/
theorem idx_col29 (n : Fin 8388608) : idx_main_v29 (ix2 n (0 : Fin 1)) = ix1 n := by
  funext a; match a with | ⟨0, _⟩ => rfl

/-! ## The three pieces, each at a row -/

/-- The squared-gap piece at row n and column c is the squared gap of the row's entries c. -/
theorem sq_apply (x0 : (⟨S8388608x6, .f32⟩ : BufTy).Contents (Elt F)) (x1 : (⟨S8388608x4, .f32⟩ : BufTy).Contents (Elt F))
    (n : Fin 8388608) (c : Fin 3) :
    val_main_v3 (F := F) x0 x1 (ix2 n c)
      = sq (x0 (ix2 n (⟨c.val, by omega⟩ : Fin 6))) (x1 (ix2 n (⟨c.val, by omega⟩ : Fin 4))) := by
  rw [val_main_v3_apply, val_main_v2_apply, val_main_v0_apply, val_main_v1_apply, idx_sq0, idx_sq1]
  rfl

/-- The lower-range vector at row n is the row's lower-range term. -/
theorem lower_apply (x0 : (⟨S8388608x6, .f32⟩ : BufTy).Contents (Elt F)) (x1 : (⟨S8388608x4, .f32⟩ : BufTy).Contents (Elt F))
    (n : Fin 8388608) :
    val_main_v19 (F := F) x0 x1 (ix1 n)
      = lowerTerm (x0 (ix2 n (3 : Fin 6))) (x0 (ix2 n (4 : Fin 6))) (x1 (ix2 n (3 : Fin 4))) := by
  simp only [val_main_v19_apply, val_main_v12_apply, val_main_v7_apply, val_main_v6_apply, val_main_v5_apply,
    val_main_v4_apply, val_main_call1_v0_apply, val_main_cst_1_apply, val_main_v18_apply, val_main_v15_apply,
    val_main_v14_apply, val_main_v11_apply, val_main_v10_apply, val_main_v13_apply, val_main_cst_apply,
    val_main_call0_v1_apply, val_main_call0_v0_apply, val_main_cst_0_apply, val_main_v17_apply, val_main_v16_apply,
    idx_lo, idx_mid, idx_t]
  rfl

/-- The upper-range vector at row n is the row's upper-range term. -/
theorem upper_apply (x0 : (⟨S8388608x6, .f32⟩ : BufTy).Contents (Elt F)) (x1 : (⟨S8388608x4, .f32⟩ : BufTy).Contents (Elt F))
    (n : Fin 8388608) :
    val_main_v27 (F := F) x0 x1 (ix1 n)
      = upperTerm (x0 (ix2 n (3 : Fin 6))) (x0 (ix2 n (5 : Fin 6))) (x1 (ix2 n (3 : Fin 4))) := by
  simp only [val_main_v27_apply, val_main_v20_apply, val_main_v9_apply, val_main_v8_apply, val_main_v5_apply,
    val_main_v4_apply, val_main_call3_v0_apply, val_main_cst_4_apply, val_main_v26_apply, val_main_v23_apply,
    val_main_v22_apply, val_main_v11_apply, val_main_v10_apply, val_main_v21_apply, val_main_cst_2_apply,
    val_main_call2_v1_apply, val_main_call2_v0_apply, val_main_cst_3_apply, val_main_v25_apply, val_main_v24_apply,
    idx_hi, idx_mid, idx_t]
  rfl

/-! ## The five-column array at a row -/

/-- Away from the joined axis a rank-2 index keeps its row: the side condition of reading a piece of a
    concatenation along axis 1. -/
theorem off_axis {c d : Nat} (n : Fin 8388608) (a : Fin c) (b : Fin d)
    (hr : (⟨2, ![8388608, c]⟩ : Shape).rank = (⟨2, ![8388608, d]⟩ : Shape).rank) :
    ∀ e : Fin (⟨2, ![8388608, c]⟩ : Shape).rank, e.cast hr ≠ (1 : Fin (⟨2, ![8388608, d]⟩ : Shape).rank) →
      ((ix2 n a) e).val = ((ix2 n b) (e.cast hr)).val := by
  intro e he
  match e with
  | ⟨0, _⟩ => rfl
  | ⟨1, _⟩ => exact absurd rfl he

/-- **One entry of the five-column array**: at row n and column k it is term k of the row's loss. -/
theorem loss_apply (x0 : (⟨S8388608x6, .f32⟩ : BufTy).Contents (Elt F)) (x1 : (⟨S8388608x4, .f32⟩ : BufTy).Contents (Elt F))
    (n : Fin 8388608) (k : Fin 5) :
    val_main_v30 (F := F) x0 x1 (ix2 n k) = rowLoss (rowOf x0 n) (rowOf x1 n) k := by
  obtain ⟨kv, hk⟩ := k
  unfold val_main_v30
  by_cases h3 : kv < 3
  · -- columns 0, 1, 2: the first piece, at the same column
    rw [concatenate_apply_piece (1 : Fin S8388608x5.rank) _ _ (ix2 n (⟨kv, hk⟩ : Fin 5)) 0 (by simp) S8388608x3
      (val_main_v3 (F := F) x0 x1) rfl rfl 0 rfl (ix2 n (⟨kv, h3⟩ : Fin 3)) (off_axis (c := 3) (d := 5) n ⟨kv, h3⟩ ⟨kv, hk⟩ rfl) (Nat.zero_add kv)]
    rw [sq_apply]
    unfold rowLoss
    rw [dif_pos (show ((⟨kv, hk⟩ : Fin 5) : Nat) < 3 from h3)]
  · by_cases h4 : kv = 3
    · -- column 3: the second piece, its one column
      subst h4
      rw [concatenate_apply_piece (1 : Fin S8388608x5.rank) _ _ (ix2 n (⟨3, hk⟩ : Fin 5)) 1 (by simp) S8388608x1
        (val_main_v28 (F := F) x0 x1) rfl rfl 3 rfl (ix2 n (0 : Fin 1)) (off_axis (c := 1) (d := 5) n 0 ⟨3, hk⟩ rfl) rfl]
      rw [val_main_v28_apply, idx_col28, lower_apply]
      rfl
    · -- column 4: the third piece, its one column
      have h5 : kv = 4 := by omega
      subst h5
      rw [concatenate_apply_piece (1 : Fin S8388608x5.rank) _ _ (ix2 n (⟨4, hk⟩ : Fin 5)) 2 (by simp) S8388608x1
        (val_main_v29 (F := F) x0 x1) rfl rfl 4 rfl (ix2 n (0 : Fin 1)) (off_axis (c := 1) (d := 5) n 0 ⟨4, hk⟩ rfl) rfl]
      rw [val_main_v29_apply, idx_col29, upper_apply]
      rfl

/-! ## The reference's result -/

/-- **The reference's result over the extended reals**: the initial value zero plus the sum of every term of every
    row, divided by the constant the program divides by. -/
theorem ref_value (x0 : (⟨S8388608x6, .f32⟩ : BufTy).Contents (Elt Ideal)) (x1 : (⟨S8388608x4, .f32⟩ : BufTy).Contents (Elt Ideal))
    (i : S_.Idx) :
    val_main_v32 (F := Ideal) x0 x1 i
      = FloatOps.hostDivf (F := Ideal) (Ideal.ofBits .f32 0x00000000#32 + lossSum x0 x1) (Ideal.ofBits .f32 0x4C200000#32) := by
  rw [val_main_v32_apply, val_main_v31_apply, val_main_cst_5_apply, val_main_cst_6_apply, sum_idx2]
  simp only [loss_apply, Ideal.ofBits_def]
  rfl

end QuantileLoss.Ref

end
-- ==== Proof.lean ====
/-
  The quantile-loss reduction kernel against its jnp reference, over the extended reals.

  Both programs compute the mean of the same 8388608 × 5 loss terms (RowLoss.lean: per row three squared gaps, a
  lower-range term and an upper-range term): the sum of all terms, added to a zero initial value, divided by 41943040.
  The reference sums the [8388608, 5] array of terms in one reduction (RefRows.lean). The kernel walks 512 tiles of
  16384 rows in two groups of 256 steps; each step sums its tile (TileLoss.lean) and parks the sum in its own slot of the
  group's [8, 128] block (Slots.lean, CaseValues.lean, Accum.lean), the two blocks form the [2, 8, 128] output array
  (Blocks.lean), and the lines after the kernel sum that array and divide (KernelValue.lean). Every slot holds one tile
  sum or zero, so the sum of the array is the sum of the tile sums, which is the sum of all the terms regrouped by tile
  (LibBlockSums.lean): addition of extended reals is commutative and associative, so no finiteness is needed, and the
  precondition is never opened. The literals (0.95, 1.05, 1000, 0, 41943040 as f32 words) are the same words on both
  sides and are never evaluated, except that the zero word is the number zero.

  The three frames are the generated frame runs; the idealization rewrote nothing, so `preserves` is trivial.
-/
import proofs.«118085_j14834817040526_2_alg».proof.Defs
import proofs.«118085_j14834817040526_2_alg».proof.Proof.Gen.Kernel
import proofs.«118085_j14834817040526_2_alg».proof.Proof.Gen.Kernel.Skeleton
import proofs.«118085_j14834817040526_2_alg».proof.Proof.Gen.Kernel.Launch
import proofs.«118085_j14834817040526_2_alg».proof.Proof.Gen.Kernel.Points
import proofs.«118085_j14834817040526_2_alg».proof.Proof.Gen.Kernel.Frame
import proofs.«118085_j14834817040526_2_alg».proof.Proof.Gen.KernelIdeal
import proofs.«118085_j14834817040526_2_alg».proof.Proof.Gen.KernelIdeal.Skeleton
import proofs.«118085_j14834817040526_2_alg».proof.Proof.Gen.KernelIdeal.Launch
import proofs.«118085_j14834817040526_2_alg».proof.Proof.Gen.KernelIdeal.Points
import proofs.«118085_j14834817040526_2_alg».proof.Proof.Gen.KernelIdeal.Frame
import proofs.«118085_j14834817040526_2_alg».proof.Proof.Gen.ReferenceIdeal
import proofs.«118085_j14834817040526_2_alg».proof.Proof.Gen.Pre_finite_inputs
import proofs.«118085_j14834817040526_2_alg».proof.Proof.Gen.ReferenceIdeal.Run
import proofs.«118085_j14834817040526_2_alg».proof.Proof.Gen.ReferenceIdeal.Read
import proofs.«118085_j14834817040526_2_alg».proof.Proof.KernelValue
import proofs.«118085_j14834817040526_2_alg».proof.Proof.RefRows
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals both programs end with the mean loss of the arguments: the kernel's tile sums, parked one per
    slot and summed by the host, and the reference's one sum over all rows are the same sum regrouped. -/
theorem algebraic : Cert.algebraic_KernelIdeal_ReferenceIdeal := by
  intro m ρ m' ρ' _ hagree
  refine ⟨fun c => QuantileLoss.Kernel.meanLoss m c, QuantileLoss.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq]
  funext i
  rw [QuantileLoss.Ref.ref_value, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
